-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v47)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v47) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v48) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x64 : Shape := ⟨2, ![50000, 64]⟩
abbrev S64x64 : Shape := ⟨2, ![64, 64]⟩
abbrev S64 : Shape := ⟨1, ![64]⟩
abbrev S800000 : Shape := ⟨1, ![800000]⟩
abbrev S2x800000 : Shape := ⟨2, ![2, 800000]⟩
abbrev S_ : Shape := ⟨0, ![]⟩

class Facts : Prop where
  bcast_S_S50000x64 : S_.BroadcastsInDim S50000x64 (![] : Fin 0 → Fin S50000x64.rank)
  reducesTo_S50000x64_S_d0_1 : S50000x64.ReducesTo [0, 1] S_
  h_S_ : 0 < S_.numel
  bcast_S_S64x64 : S_.BroadcastsInDim S64x64 (![] : Fin 0 → Fin S64x64.rank)
  reducesTo_S64x64_S_d0_1 : S64x64.ReducesTo [0, 1] S_
  bcast_S_S64 : S_.BroadcastsInDim S64 (![] : Fin 0 → Fin S64.rank)
  reducesTo_S64_S_d0 : S64.ReducesTo [0] S_
  bcast_S_S800000 : S_.BroadcastsInDim S800000 (![] : Fin 0 → Fin S800000.rank)
  reducesTo_S800000_S_d0 : S800000.ReducesTo [0] S_

variable [Facts]

def fn_part1 {F : FTy → Type} [FloatOps F] (main_v13 : IVec S_ 1) (main_v16 : IVec S800000 1) : IVec S_ 1 :=
  let main_c_5 : IVec S_ 1 := constantI S_ 1 1#1
  let main_v17 : IVec S_ 1 := (fun x v => Host.reduce IntOp.andi x v reducesTo_S800000_S_d0 h_S_) main_v16 main_c_5
  let main_v18 : IVec S_ 1 := andi main_v13 main_v17
  main_v18

def fn {F : FTy → Type} [FloatOps F] (main_arg0 : FVec F S50000x64 .f32) (main_arg1 : FVec F S64x64 .f32) (main_arg2 : FVec F S64 .f32) (main_arg3 : FVec F S800000 .f32) (main_arg4 : IVec S2x800000 32) : IVec S_ 1 :=
  let main_v0 : FVec F S50000x64 .f32 := Host.absf main_arg0
  let main_cst : FVec F S_ .f32 := constant S_ .f32 0x7F800000#32
  let main_v1 : FVec F S50000x64 .f32 := broadcastInDim S50000x64 ![] bcast_S_S50000x64 main_cst
  let main_v2 : IVec S50000x64 1 := cmpf .olt main_v0 main_v1
  let main_c : IVec S_ 1 := constantI S_ 1 1#1
  let main_v3 : IVec S_ 1 := (fun x v => Host.reduce IntOp.andi x v reducesTo_S50000x64_S_d0_1 h_S_) main_v2 main_c
  let main_v4 : FVec F S64x64 .f32 := Host.absf main_arg1
  let main_cst_0 : FVec F S_ .f32 := constant S_ .f32 0x7F800000#32
  let main_v5 : FVec F S64x64 .f32 := broadcastInDim S64x64 ![] bcast_S_S64x64 main_cst_0
  let main_v6 : IVec S64x64 1 := cmpf .olt main_v4 main_v5
  let main_c_1 : IVec S_ 1 := constantI S_ 1 1#1
  let main_v7 : IVec S_ 1 := (fun x v => Host.reduce IntOp.andi x v reducesTo_S64x64_S_d0_1 h_S_) main_v6 main_c_1
  let main_v8 : IVec S_ 1 := andi main_v3 main_v7
  let main_v9 : FVec F S64 .f32 := Host.absf main_arg2
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S800000 .f32 := Host.absf main_arg3
  let main_cst_4 : FVec F S_ .f32 := constant S_ .f32 0x7F800000#32
  let main_v15 : FVec F S800000 .f32 := broadcastInDim S800000 ![] bcast_S_S800000 main_cst_4
  let main_v16 : IVec S800000 1 := cmpf .olt main_v14 main_v15
  fn_part1 (F := F) main_v13 main_v16
-- ==== Kernel.lean ====
abbrev S50000x64 : Shape := ⟨2, ![50000, 64]⟩
abbrev S64x64 : Shape := ⟨2, ![64, 64]⟩
abbrev S64 : Shape := ⟨1, ![64]⟩
abbrev S800000 : Shape := ⟨1, ![800000]⟩
abbrev S2x800000 : Shape := ⟨2, ![2, 800000]⟩
abbrev S1x800000 : Shape := ⟨2, ![1, 800000]⟩
abbrev S50000 : Shape := ⟨1, ![50000]⟩
abbrev S850000 : Shape := ⟨1, ![850000]⟩
abbrev S_ : Shape := ⟨0, ![]⟩
abbrev S5000x64 : Shape := ⟨2, ![5000, 64]⟩
abbrev S850000x1 : Shape := ⟨2, ![850000, 1]⟩
abbrev S850000x64 : Shape := ⟨2, ![850000, 64]⟩
abbrev S5000x1 : Shape := ⟨2, ![5000, 1]⟩
abbrev S1x64 : Shape := ⟨2, ![1, 64]⟩

abbrev nBuf : Space → Nat
  | .hbm => 66
  | .vmem => 15
  | .smem => 0
  | _ => 0

abbrev bufTy : (tb : Table) → Fin (tcTables nBuf tb) → BufTy
  | .hbm, ⟨0, _⟩ => ⟨S50000x64, .f32⟩
  | .hbm, ⟨1, _⟩ => ⟨S64x64, .f32⟩
  | .hbm, ⟨2, _⟩ => ⟨S64, .f32⟩
  | .hbm, ⟨3, _⟩ => ⟨S800000, .f32⟩
  | .hbm, ⟨4, _⟩ => ⟨S2x800000, .i32⟩
  | .hbm, ⟨5, _⟩ => ⟨S1x800000, .i32⟩
  | .hbm, ⟨6, _⟩ => ⟨S800000, .i32⟩
  | .hbm, ⟨7, _⟩ => ⟨S1x800000, .i32⟩
  | .hbm, ⟨8, _⟩ => ⟨S800000, .i32⟩
  | .hbm, ⟨9, _⟩ => ⟨S50000, .i32⟩
  | .hbm, ⟨10, _⟩ => ⟨S850000, .i32⟩
  | .hbm, ⟨11, _⟩ => ⟨S850000, .i32⟩
  | .hbm, ⟨12, _⟩ => ⟨S_, .f32⟩
  | .hbm, ⟨13, _⟩ => ⟨S50000, .f32⟩
  | .hbm, ⟨14, _⟩ => ⟨S850000, .f32⟩
  | .hbm, ⟨15, _⟩ => ⟨S50000x64, .f32⟩
  | .hbm, ⟨16, _⟩ => ⟨S_, .f32⟩
  | .hbm, ⟨17, _⟩ => ⟨S50000, .f32⟩
  | .hbm, ⟨18, _⟩ => ⟨S850000x1, .i32⟩
  | .hbm, ⟨19, _⟩ => ⟨S50000, .f32⟩
  | .hbm, ⟨20, _⟩ => ⟨S_, .f32⟩
  | .hbm, ⟨21, _⟩ => ⟨S50000, .f32⟩
  | .hbm, ⟨22, _⟩ => ⟨S50000, .i1⟩
  | .hbm, ⟨23, _⟩ => ⟨S50000, .f32⟩
  | .hbm, ⟨24, _⟩ => ⟨S_, .f32⟩
  | .hbm, ⟨25, _⟩ => ⟨S_, .f32⟩
  | .hbm, ⟨26, _⟩ => ⟨S50000, .f32⟩
  | .hbm, ⟨27, _⟩ => ⟨S50000, .f32⟩
  | .hbm, ⟨28, _⟩ => ⟨S_, .i32⟩
  | .hbm, ⟨29, _⟩ => ⟨S850000, .i32⟩
  | .hbm, ⟨30, _⟩ => ⟨S850000, .i1⟩
  | .hbm, ⟨31, _⟩ => ⟨S_, .i32⟩
  | .hbm, ⟨32, _⟩ => ⟨S850000, .i32⟩
  | .hbm, ⟨33, _⟩ => ⟨S850000, .i32⟩
  | .hbm, ⟨34, _⟩ => ⟨S850000, .i32⟩
  | .hbm, ⟨35, _⟩ => ⟨S850000x1, .i32⟩
  | .hbm, ⟨36, _⟩ => ⟨S850000, .f32⟩
  | .hbm, ⟨37, _⟩ => ⟨S_, .i32⟩
  | .hbm, ⟨38, _⟩ => ⟨S850000, .i32⟩
  | .hbm, ⟨39, _⟩ => ⟨S850000, .i1⟩
  | .hbm, ⟨40, _⟩ => ⟨S_, .i32⟩
  | .hbm, ⟨41, _⟩ => ⟨S850000, .i32⟩
  | .hbm, ⟨42, _⟩ => ⟨S850000, .i32⟩
  | .hbm, ⟨43, _⟩ => ⟨S850000, .i32⟩
  | .hbm, ⟨44, _⟩ => ⟨S850000x1, .i32⟩
  | .hbm, ⟨45, _⟩ => ⟨S850000, .f32⟩
  | .hbm, ⟨46, _⟩ => ⟨S_, .i32⟩
  | .hbm, ⟨47, _⟩ => ⟨S850000, .i32⟩
  | .hbm, ⟨48, _⟩ => ⟨S850000, .i1⟩
  | .hbm, ⟨49, _⟩ => ⟨S_, .i32⟩
  | .hbm, ⟨50, _⟩ => ⟨S850000, .i32⟩
  | .hbm, ⟨51, _⟩ => ⟨S850000, .i32⟩
  | .hbm, ⟨52, _⟩ => ⟨S850000, .i32⟩
  | .hbm, ⟨53, _⟩ => ⟨S850000x1, .i32⟩
  | .hbm, ⟨54, _⟩ => ⟨S850000x64, .f32⟩
  | .hbm, ⟨55, _⟩ => ⟨S850000x1, .f32⟩
  | .hbm, ⟨56, _⟩ => ⟨S850000x1, .f32⟩
  | .hbm, ⟨57, _⟩ => ⟨S850000x1, .f32⟩
  | .hbm, ⟨58, _⟩ => ⟨S850000x64, .f32⟩
  | .hbm, ⟨59, _⟩ => ⟨S_, .f32⟩
  | .hbm, ⟨60, _⟩ => ⟨S50000x64, .f32⟩
  | .hbm, ⟨61, _⟩ => ⟨S850000x1, .i32⟩
  | .hbm, ⟨62, _⟩ => ⟨S50000x64, .f32⟩
  | .hbm, ⟨63, _⟩ => ⟨S1x64, .f32⟩
  | .hbm, ⟨64, _⟩ => ⟨S50000x64, .f32⟩
  | .hbm, ⟨65, _⟩ => ⟨S50000x64, .f32⟩
  | .local _ .vmem, ⟨0, _⟩ => ⟨S5000x64, .f32⟩
  | .local _ .vmem, ⟨1, _⟩ => ⟨S5000x64, .f32⟩
  | .local _ .vmem, ⟨2, _⟩ => ⟨S64x64, .f32⟩
  | .local _ .vmem, ⟨3, _⟩ => ⟨S5000x64, .f32⟩
  | .local _ .vmem, ⟨4, _⟩ => ⟨S5000x64, .f32⟩
  | .local _ .vmem, ⟨5, _⟩ => ⟨S5000x64, .f32⟩
  | .local _ .vmem, ⟨6, _⟩ => ⟨S5000x64, .f32⟩
  | .local _ .vmem, ⟨7, _⟩ => ⟨S5000x1, .f32⟩
  | .local _ .vmem, ⟨8, _⟩ => ⟨S5000x1, .f32⟩
  | .local _ .vmem, ⟨9, _⟩ => ⟨S5000x1, .f32⟩
  | .local _ .vmem, ⟨10, _⟩ => ⟨S5000x1, .f32⟩
  | .local _ .vmem, ⟨11, _⟩ => ⟨S5000x1, .f32⟩
  | .local _ .vmem, ⟨12, _⟩ => ⟨S5000x1, .f32⟩
  | .local _ .vmem, ⟨13, _⟩ => ⟨S5000x64, .f32⟩
  | .local _ .vmem, ⟨14, _⟩ => ⟨S5000x64, .f32⟩
  | _, _ => ⟨S50000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_cst_0 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_cst_1 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_cst_2 : Ref sig .tc := ⟨.hbm, 24, rfl⟩
abbrev main_call0_v0 : Ref sig .tc := ⟨.hbm, 25, rfl⟩
abbrev main_call0_v1 : Ref sig .tc := ⟨.hbm, 26, rfl⟩
abbrev main_v16 : Ref sig .tc := ⟨.hbm, 27, rfl⟩
abbrev main_c : Ref sig .tc := ⟨.hbm, 28, rfl⟩
abbrev main_v17 : Ref sig .tc := ⟨.hbm, 29, rfl⟩
abbrev main_v18 : Ref sig .tc := ⟨.hbm, 30, rfl⟩
abbrev main_c_3 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_c_4 : Ref sig .tc := ⟨.hbm, 37, rfl⟩
abbrev main_v24 : Ref sig .tc := ⟨.hbm, 38, rfl⟩
abbrev main_v25 : Ref sig .tc := ⟨.hbm, 39, rfl⟩
abbrev main_c_5 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_c_6 : Ref sig .tc := ⟨.hbm, 46, rfl⟩
abbrev main_v31 : Ref sig .tc := ⟨.hbm, 47, rfl⟩
abbrev main_v32 : Ref sig .tc := ⟨.hbm, 48, rfl⟩
abbrev main_c_7 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_cst_8 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg2_1 : Ref sig .tc := ⟨.vmem, 10, rfl⟩
abbrev cc1_stg3_0 : Ref sig .tc := ⟨.vmem, 11, rfl⟩
abbrev cc1_stg3_1 : Ref sig .tc := ⟨.vmem, 12, rfl⟩
abbrev cc1_stg4_0 : Ref sig .tc := ⟨.vmem, 13, rfl⟩
abbrev cc1_stg4_1 : Ref sig .tc := ⟨.vmem, 14, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem2_1 : DmaSem sig := 10
abbrev cc1_sem3_0 : DmaSem sig := 11
abbrev cc1_sem3_1 : DmaSem sig := 12
abbrev cc1_sem4_0 : DmaSem sig := 13
abbrev cc1_sem4_1 : DmaSem sig := 14

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![170], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S5000x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S5000x1 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S5000x64 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  concatenates_S800000_S50000_S850000_d0 : Shape.Concatenates [S800000, S50000] S850000 0
  bcast_S_S50000 : S_.BroadcastsInDim S50000 (![] : Fin 0 → Fin S50000.rank)
  inb_S5000x64_S5000x64_0_0 : ∀ a, (![0, 0] : Fin 2 → Nat) a + S5000x64.size a ≤ S5000x64.size a
  h_S5000x64 : 0 < S5000x64.numel
  bitsLt_bf16_f32 : FTy.bits .bf16 < FTy.bits .f32
  inb_S64x64_S64x64_0_0 : ∀ a, (![0, 0] : Fin 2 → Nat) a + S64x64.size a ≤ S64x64.size a
  h_S64x64 : 0 < S64x64.numel
  bcast_S850000_S850000x1_0 : S850000.BroadcastsInDim S850000x1 (![0] : Fin 1 → Fin S850000x1.rank)
  bcast_S_S850000 : S_.BroadcastsInDim S850000 (![] : Fin 0 → Fin S850000.rank)
  shapeCasts_S850000_S850000x1 : S850000.ShapeCasts S850000x1
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  broadcasts_S5000x1_S5000x64 : S5000x1.Broadcasts S5000x64
  shapeCasts_S5000x64_S5000x64 : S5000x64.ShapeCasts S5000x64
  bcast_S_S50000x64 : S_.BroadcastsInDim S50000x64 (![] : Fin 0 → Fin S50000x64.rank)
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  dot_S5000x64_S64x64_S5000x64_1_0_0_1_n_n_wf : DotDims.WF S5000x64 S64x64 S5000x64 [1] [0] [0] [1] [] []
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  gather_S50000x64_S850000x1_S850000x64_1_0_n_n_0_1_164_wf : GatherDims.WF S50000x64 S850000x1 S850000x64 [1] [0] [] [0] [] 1 ![1, 64]
  scatter_S50000x64_S850000x1_S850000x64_1_0_0_1_wf : ScatterDims.WF S50000x64 S850000x1 S850000x64 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x64.size a ≤ S50000x64.size a
  hwx0_0 : ∀ i : grid0.Coords, EltTy.bits .f32 = 32 ∨ (Rect.block (s := S50000x64) S5000x64.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x64.size a ≤ S64x64.size a
  hwx0_1 : ∀ i : grid0.Coords, EltTy.bits .f32 = 32 ∨ (Rect.block (s := S64x64) S64x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x64.size a ≤ S50000x64.size a
  hwx0_2 : ∀ i : grid0.Coords, EltTy.bits .f32 = 32 ∨ (Rect.block (s := S50000x64) S5000x64.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x64.size a ≤ S850000x64.size a
  hwx1_0 : ∀ i : grid1.Coords, EltTy.bits .f32 = 32 ∨ (Rect.block (s := S850000x64) S5000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x1.size a ≤ S850000x1.size a
  hwx1_1 : ∀ i : grid1.Coords, EltTy.bits .f32 = 32 ∨ (Rect.block (s := S850000x1) S5000x1.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x1.size a ≤ S850000x1.size a
  hwx1_2 : ∀ i : grid1.Coords, EltTy.bits .f32 = 32 ∨ (Rect.block (s := S850000x1) S5000x1.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S5000x1.size a ≤ S850000x1.size a
  hwx1_3 : ∀ i : grid1.Coords, EltTy.bits .f32 = 32 ∨ (Rect.block (s := S850000x1) S5000x1.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S5000x64.size a ≤ S850000x64.size a
  hwx1_4 : ∀ i : grid1.Coords, EltTy.bits .f32 = 32 ∨ (Rect.block (s := S850000x64) S5000x64.size (cc1_transform_4 i) (hinb1_4 i)).WholeWords (EltTy.packing .f32)

variable [Facts₀]

def dot_S5000x64_S64x64_S5000x64_1_0_0_1_n_n : DotDims S5000x64 S64x64 S5000x64 where
  lhsContracting := [1]
  rhsContracting := [0]
  lhsNonContracting := [0]
  rhsNonContracting := [1]
  lhsBatch := []
  rhsBatch := []
  wf := dot_S5000x64_S64x64_S5000x64_1_0_0_1_n_n_wf
def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def gather_S50000x64_S850000x1_S850000x64_1_0_n_n_0_1_164 : GatherDims S50000x64 S850000x1 S850000x64 where
  offsetDims := [1]
  collapsedSliceDims := [0]
  operandBatchingDims := []
  startIndicesBatchingDims := []
  startIndexMap := [0]
  indexVectorDim := 1
  sliceSizes := ![1, 64]
  wf := gather_S50000x64_S850000x1_S850000x64_1_0_n_n_0_1_164_wf
def scatter_S50000x64_S850000x1_S850000x64_1_0_0_1 : ScatterDims S50000x64 S850000x1 S850000x64 where
  updateWindowDims := [1]
  insertedWindowDims := [0]
  scatterDimsToOperandDims := [0]
  indexVectorDim := 1
  wf := scatter_S50000x64_S850000x1_S850000x64_1_0_0_1_wf

abbrev win0_0 : Pipeline.Window sig grid0 :=
  Pipeline.Window.ofSpec (Memref.whole main_arg0) S5000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S64x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v9) S5000x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v37) S5000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v38) S5000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v39) S5000x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v40) S5000x1.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_v41) S5000x64.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

class Facts : Prop extends Facts₀ where

variable [Facts]
-- ==== ReferenceIdeal.lean ====
abbrev S50000x64 : Shape := ⟨2, ![50000, 64]⟩
abbrev S64x64 : Shape := ⟨2, ![64, 64]⟩
abbrev S64 : Shape := ⟨1, ![64]⟩
abbrev S800000 : Shape := ⟨1, ![800000]⟩
abbrev S2x800000 : Shape := ⟨2, ![2, 800000]⟩
abbrev S1x800000 : Shape := ⟨2, ![1, 800000]⟩
abbrev S50000 : Shape := ⟨1, ![50000]⟩
abbrev S850000 : Shape := ⟨1, ![850000]⟩
abbrev S_ : Shape := ⟨0, ![]⟩
abbrev S850000x1 : Shape := ⟨2, ![850000, 1]⟩
abbrev S850000x64 : Shape := ⟨2, ![850000, 64]⟩
abbrev S1x64 : Shape := ⟨2, ![1, 64]⟩

abbrev nBuf : Space → Nat
  | .hbm => 67
  | .vmem => 0
  | .smem => 0
  | _ => 0

abbrev bufTy : (tb : Table) → Fin (tcTables nBuf tb) → BufTy
  | .hbm, ⟨0, _⟩ => ⟨S50000x64, .f32⟩
  | .hbm, ⟨1, _⟩ => ⟨S64x64, .f32⟩
  | .hbm, ⟨2, _⟩ => ⟨S64, .f32⟩
  | .hbm, ⟨3, _⟩ => ⟨S800000, .f32⟩
  | .hbm, ⟨4, _⟩ => ⟨S2x800000, .i32⟩
  | .hbm, ⟨5, _⟩ => ⟨S1x800000, .i32⟩
  | .hbm, ⟨6, _⟩ => ⟨S800000, .i32⟩
  | .hbm, ⟨7, _⟩ => ⟨S1x800000, .i32⟩
  | .hbm, ⟨8, _⟩ => ⟨S800000, .i32⟩
  | .hbm, ⟨9, _⟩ => ⟨S50000, .i32⟩
  | .hbm, ⟨10, _⟩ => ⟨S850000, .i32⟩
  | .hbm, ⟨11, _⟩ => ⟨S850000, .i32⟩
  | .hbm, ⟨12, _⟩ => ⟨S_, .f32⟩
  | .hbm, ⟨13, _⟩ => ⟨S50000, .f32⟩
  | .hbm, ⟨14, _⟩ => ⟨S850000, .f32⟩
  | .hbm, ⟨15, _⟩ => ⟨S_, .f32⟩
  | .hbm, ⟨16, _⟩ => ⟨S50000, .f32⟩
  | .hbm, ⟨17, _⟩ => ⟨S850000x1, .i32⟩
  | .hbm, ⟨18, _⟩ => ⟨S50000, .f32⟩
  | .hbm, ⟨19, _⟩ => ⟨S_, .f32⟩
  | .hbm, ⟨20, _⟩ => ⟨S50000, .f32⟩
  | .hbm, ⟨21, _⟩ => ⟨S50000, .i1⟩
  | .hbm, ⟨22, _⟩ => ⟨S50000, .f32⟩
  | .hbm, ⟨23, _⟩ => ⟨S_, .f32⟩
  | .hbm, ⟨24, _⟩ => ⟨S_, .f32⟩
  | .hbm, ⟨25, _⟩ => ⟨S50000, .f32⟩
  | .hbm, ⟨26, _⟩ => ⟨S50000, .f32⟩
  | .hbm, ⟨27, _⟩ => ⟨S_, .i32⟩
  | .hbm, ⟨28, _⟩ => ⟨S850000, .i32⟩
  | .hbm, ⟨29, _⟩ => ⟨S850000, .i1⟩
  | .hbm, ⟨30, _⟩ => ⟨S_, .i32⟩
  | .hbm, ⟨31, _⟩ => ⟨S850000, .i32⟩
  | .hbm, ⟨32, _⟩ => ⟨S850000, .i32⟩
  | .hbm, ⟨33, _⟩ => ⟨S850000, .i32⟩
  | .hbm, ⟨34, _⟩ => ⟨S850000x1, .i32⟩
  | .hbm, ⟨35, _⟩ => ⟨S850000, .f32⟩
  | .hbm, ⟨36, _⟩ => ⟨S850000, .f32⟩
  | .hbm, ⟨37, _⟩ => ⟨S_, .i32⟩
  | .hbm, ⟨38, _⟩ => ⟨S850000, .i32⟩
  | .hbm, ⟨39, _⟩ => ⟨S850000, .i1⟩
  | .hbm, ⟨40, _⟩ => ⟨S_, .i32⟩
  | .hbm, ⟨41, _⟩ => ⟨S850000, .i32⟩
  | .hbm, ⟨42, _⟩ => ⟨S850000, .i32⟩
  | .hbm, ⟨43, _⟩ => ⟨S850000, .i32⟩
  | .hbm, ⟨44, _⟩ => ⟨S850000x1, .i32⟩
  | .hbm, ⟨45, _⟩ => ⟨S850000, .f32⟩
  | .hbm, ⟨46, _⟩ => ⟨S850000, .f32⟩
  | .hbm, ⟨47, _⟩ => ⟨S50000x64, .f32⟩
  | .hbm, ⟨48, _⟩ => ⟨S_, .i32⟩
  | .hbm, ⟨49, _⟩ => ⟨S850000, .i32⟩
  | .hbm, ⟨50, _⟩ => ⟨S850000, .i1⟩
  | .hbm, ⟨51, _⟩ => ⟨S_, .i32⟩
  | .hbm, ⟨52, _⟩ => ⟨S850000, .i32⟩
  | .hbm, ⟨53, _⟩ => ⟨S850000, .i32⟩
  | .hbm, ⟨54, _⟩ => ⟨S850000, .i32⟩
  | .hbm, ⟨55, _⟩ => ⟨S850000x1, .i32⟩
  | .hbm, ⟨56, _⟩ => ⟨S850000x64, .f32⟩
  | .hbm, ⟨57, _⟩ => ⟨S850000x1, .f32⟩
  | .hbm, ⟨58, _⟩ => ⟨S850000x64, .f32⟩
  | .hbm, ⟨59, _⟩ => ⟨S850000x64, .f32⟩
  | .hbm, ⟨60, _⟩ => ⟨S_, .f32⟩
  | .hbm, ⟨61, _⟩ => ⟨S50000x64, .f32⟩
  | .hbm, ⟨62, _⟩ => ⟨S850000x1, .i32⟩
  | .hbm, ⟨63, _⟩ => ⟨S50000x64, .f32⟩
  | .hbm, ⟨64, _⟩ => ⟨S1x64, .f32⟩
  | .hbm, ⟨65, _⟩ => ⟨S50000x64, .f32⟩
  | .hbm, ⟨66, _⟩ => ⟨S50000x64, .f32⟩
  | _, _ => ⟨S50000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst : Ref sig .tc := ⟨.hbm, 12, rfl⟩
abbrev main_v7 : Ref sig .tc := ⟨.hbm, 13, rfl⟩
abbrev main_v8 : Ref sig .tc := ⟨.hbm, 14, rfl⟩
abbrev main_cst_0 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_cst_1 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_cst_2 : Ref sig .tc := ⟨.hbm, 23, rfl⟩
abbrev main_call0_v0 : Ref sig .tc := ⟨.hbm, 24, rfl⟩
abbrev main_call0_v1 : Ref sig .tc := ⟨.hbm, 25, rfl⟩
abbrev main_v15 : Ref sig .tc := ⟨.hbm, 26, rfl⟩
abbrev main_c : Ref sig .tc := ⟨.hbm, 27, rfl⟩
abbrev main_v16 : Ref sig .tc := ⟨.hbm, 28, rfl⟩
abbrev main_v17 : Ref sig .tc := ⟨.hbm, 29, rfl⟩
abbrev main_c_3 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_c_4 : Ref sig .tc := ⟨.hbm, 37, rfl⟩
abbrev main_v24 : Ref sig .tc := ⟨.hbm, 38, rfl⟩
abbrev main_v25 : Ref sig .tc := ⟨.hbm, 39, rfl⟩
abbrev main_c_5 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_c_6 : Ref sig .tc := ⟨.hbm, 48, rfl⟩
abbrev main_v33 : Ref sig .tc := ⟨.hbm, 49, rfl⟩
abbrev main_v34 : Ref sig .tc := ⟨.hbm, 50, rfl⟩
abbrev main_c_7 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_cst_8 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  concatenates_S800000_S50000_S850000_d0 : Shape.Concatenates [S800000, S50000] S850000 0
  bcast_S_S50000 : S_.BroadcastsInDim S50000 (![] : Fin 0 → Fin S50000.rank)
  bcast_S850000_S850000x1_0 : S850000.BroadcastsInDim S850000x1 (![0] : Fin 1 → Fin S850000x1.rank)
  bcast_S_S850000 : S_.BroadcastsInDim S850000 (![] : Fin 0 → Fin S850000.rank)
  bcast_S850000x1_S850000x64_0_1 : S850000x1.BroadcastsInDim S850000x64 (![0, 1] : Fin 2 → Fin S850000x64.rank)
  bcast_S_S50000x64 : S_.BroadcastsInDim S50000x64 (![] : Fin 0 → Fin S50000x64.rank)
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  dot_S50000x64_S64x64_S50000x64_1_0_0_1_n_n_wf : DotDims.WF S50000x64 S64x64 S50000x64 [1] [0] [0] [1] [] []
  gather_S50000x64_S850000x1_S850000x64_1_0_n_n_0_1_164_wf : GatherDims.WF S50000x64 S850000x1 S850000x64 [1] [0] [] [0] [] 1 ![1, 64]
  scatter_S50000x64_S850000x1_S850000x64_1_0_0_1_wf : ScatterDims.WF S50000x64 S850000x1 S850000x64 [1] [0] [0] 1

variable [Facts₀]

def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def dot_S50000x64_S64x64_S50000x64_1_0_0_1_n_n : DotDims S50000x64 S64x64 S50000x64 where
  lhsContracting := [1]
  rhsContracting := [0]
  lhsNonContracting := [0]
  rhsNonContracting := [1]
  lhsBatch := []
  rhsBatch := []
  wf := dot_S50000x64_S64x64_S50000x64_1_0_0_1_n_n_wf
def gather_S50000x64_S850000x1_S850000x64_1_0_n_n_0_1_164 : GatherDims S50000x64 S850000x1 S850000x64 where
  offsetDims := [1]
  collapsedSliceDims := [0]
  operandBatchingDims := []
  startIndicesBatchingDims := []
  startIndexMap := [0]
  indexVectorDim := 1
  sliceSizes := ![1, 64]
  wf := gather_S50000x64_S850000x1_S850000x64_1_0_n_n_0_1_164_wf
def scatter_S50000x64_S850000x1_S850000x64_1_0_0_1 : ScatterDims S50000x64 S850000x1 S850000x64 where
  updateWindowDims := [1]
  insertedWindowDims := [0]
  scatterDimsToOperandDims := [0]
  indexVectorDim := 1
  wf := scatter_S50000x64_S850000x1_S850000x64_1_0_0_1_wf

class Facts : Prop extends Facts₀ where

variable [Facts]
-- ==== Proof.KernelRun.lean ====
/-
  The idealized kernel program's run with its result NAMED.  The program is seven segments: five stretches of host
  operations around two pipelined regions.  The buffer contents at each boundary are a fold through those segments
  (`Gen.W0` … `Gen.W7`), and the last thread state holds every unscoped buffer at `Gen.W7`.  Reading that state
  against a final memory at the RESULT buffer as well as at the argument buffers gives: every weakly fair execution
  terminates, the result array ends at `Gen.W7`'s contents of it, and the arguments end as launched.
-/
import proofs.«155317_j19447611916814_2_alg».proof.Proof.Gen.KernelIdeal.Frame

set_option maxRecDepth 16384

noncomputable section

namespace Cert.KernelIdeal.RunValue

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates without a fault; the result array then holds what the fold
    through the seven segments leaves in it, and the five argument arrays are unchanged. -/
theorem run_named : θ_run defs (onTc (τ := τ) (main (F := F))) ⟨m, fun _ => 0, ρ⟩ (fun r => ∀ c : Dev nD,
      r.2.mem ((c.tc : Thread nD τ).loc main_v47) = W7 m ρ c (Proc.devRef .tc main_v47)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m ρ c b)
    (hfin := fun c s' => by
      iintro ⟨⟨Hh, -⟩, HSI⟩
      unfold StableHlo.held
      imodintro
      iapply (pointsTo_read_all (Pipeline.ucRefs τ sig) (fun b => (((c : Thread nD τ)).1, b)) (W7 m ρ c) s')
      isplitl [Hh] <;> iassumption)
    (hQ := fun s h c =>
      ⟨h c _ (mem_uc main_v47 (by decide)),
       (h c _ (mem_uc main_arg0 (by decide))).trans (W7_main_arg0 m ρ c),
       (h c _ (mem_uc main_arg1 (by decide))).trans (W7_main_arg1 m ρ c),
       (h c _ (mem_uc main_arg2 (by decide))).trans (W7_main_arg2 m ρ c),
       (h c _ (mem_uc main_arg3 (by decide))).trans (W7_main_arg3 m ρ c),
       (h c _ (mem_uc main_arg4 (by decide))).trans (W7_main_arg4 m ρ c)⟩)

end Cert.KernelIdeal.RunValue

end
-- ==== Proof.Spec.lean ====
/-
  The two rectangular pieces of the graph convolution, as functions of whole arrays.

  `xw x w` is the dense product: entry (n, j) is the sum over k of x(n, k) · w(k, j) on the extended reals.
  `scaled a dr dc ew` multiplies row e of the gathered features `a` by that edge's normalisation, the product
  (dr(e) · ew(e)) · dc(e) of the two endpoint factors and the edge weight, each held as a column.
-/
import Idealize.ShloMosaic.PureOps.Ideal
import Idealize.ShloMosaic.Lib.ValueIdx

noncomputable section

namespace Cert.Gcn

open Idealize.ShloMosaic Idealize.ShloMosaic.ValueIdx

/-- The [50000, 64] · [64, 64] product at an index: the sum of the 64 products along the contracted axis. -/
def xw (x : (⟨2, ![50000, 64]⟩ : Shape).Idx → EReal) (w : (⟨2, ![64, 64]⟩ : Shape).Idx → EReal) :
    (⟨2, ![50000, 64]⟩ : Shape).Idx → EReal :=
  fun i => ∑ k : Fin 64, x (ix2 (n0 := 50000) (n1 := 64) (i 0) k) * w (ix2 (n0 := 64) (n1 := 64) k (i 1))

/-- Row e of `a` times the edge's factor (dr(e) · ew(e)) · dc(e), the three factors read from [850000, 1] columns.
    Stated over any multiplication, since only its shape matters. -/
def scaled {α : Type} (mul : α → α → α) (a : (⟨2, ![850000, 64]⟩ : Shape).Idx → α)
    (dr dc ew : (⟨2, ![850000, 1]⟩ : Shape).Idx → α) : (⟨2, ![850000, 64]⟩ : Shape).Idx → α :=
  fun i => mul (a i) (mul (mul (dr (ix2 (n0 := 850000) (n1 := 1) (i 0) 0)) (ew (ix2 (n0 := 850000) (n1 := 1) (i 0) 0)))
    (dc (ix2 (n0 := 850000) (n1 := 1) (i 0) 0)))

end Cert.Gcn

end
-- ==== Proof.Matmul.lean ====
/-
  The first region: ten grid points, each multiplying a block of 5000 rows of x by the whole of W.

  At the ideal values a change of float format is the identity and a matrix product into a zero accumulator is the
  plain sum of the 64 products along the contracted axis, so what a point leaves in its output block is, entry by
  entry, the dense product `Cert.Gcn.xw` of the arrays the region was entered with, read through that block: row p
  of block t is row 5000·t + p of the array, and W's one block is all of W.  The ten output blocks are the ten
  5000-row bands of the result, so they cover it, and the array the region leaves is `xw` itself.
-/
import proofs.«155317_j19447611916814_2_alg».proof.Proof.Gen.KernelIdeal.Frame
import proofs.«155317_j19447611916814_2_alg».proof.Proof.Spec
import Idealize.ShloMosaic.Lib.Pipeline.Value
import Idealize.ShloMosaic.Lib.ValueIdx
import Idealize.ShloMosaic.PureOps.Ideal.Laws

set_option maxRecDepth 16384

noncomputable section

namespace Cert.KernelIdeal.MatmulValue

open Idealize.ShloMosaic Idealize.ShloMosaic.TcCoe Idealize.ShloMosaic.ValueIdx Idealize.SL.Sem
open Idealize.ShloMosaic.Pipeline (Dat Cfg Window)
open Cert.KernelIdeal Cert.KernelIdeal.Gen

/-! ## The body's arithmetic at an entry -/

theorem hz : (![0, 0] : Fin 2 → Nat) = fun _ => 0 := funext fun a => by fin_cases a <;> rfl

/-- The operands' indices at an output index i and a contraction index s, coordinate by coordinate: the left operand is
    read at (i 0, s), the right at (s, i 1). -/
theorem lhs_0 (i : S5000x64.Idx) (s : dot_S5000x64_S64x64_S5000x64_1_0_0_1_n_n.contr.Idx) :
    (dot_S5000x64_S64x64_S5000x64_1_0_0_1_n_n.lhsIdx i s 0).val = (i 0).val := by
  unfold DotDims.lhsIdx
  rw [dif_neg (show ¬(0 : Fin S5000x64.rank) ∈ dot_S5000x64_S64x64_S5000x64_1_0_0_1_n_n.lhsBatch by decide),
    dif_pos (show (0 : Fin S5000x64.rank) ∈ dot_S5000x64_S64x64_S5000x64_1_0_0_1_n_n.lhsNonContracting by decide)]
  rfl
theorem lhs_1 (i : S5000x64.Idx) (s : dot_S5000x64_S64x64_S5000x64_1_0_0_1_n_n.contr.Idx) :
    (dot_S5000x64_S64x64_S5000x64_1_0_0_1_n_n.lhsIdx i s 1).val = (s ⟨0, by decide⟩).val :=
  dot_S5000x64_S64x64_S5000x64_1_0_0_1_n_n.lhsIdx_val_of_single rfl i s
theorem rhs_0 (i : S5000x64.Idx) (s : dot_S5000x64_S64x64_S5000x64_1_0_0_1_n_n.contr.Idx) :
    (dot_S5000x64_S64x64_S5000x64_1_0_0_1_n_n.rhsIdx i s 0).val = (s ⟨0, by decide⟩).val :=
  dot_S5000x64_S64x64_S5000x64_1_0_0_1_n_n.rhsIdx_val_of_single rfl i s
theorem rhs_1 (i : S5000x64.Idx) (s : dot_S5000x64_S64x64_S5000x64_1_0_0_1_n_n.contr.Idx) :
    (dot_S5000x64_S64x64_S5000x64_1_0_0_1_n_n.rhsIdx i s 1).val = (i 1).val := by
  unfold DotDims.rhsIdx
  rw [dif_neg (show ¬(1 : Fin S64x64.rank) ∈ dot_S5000x64_S64x64_S5000x64_1_0_0_1_n_n.rhsBatch by decide),
    dif_pos (show (1 : Fin S64x64.rank) ∈ dot_S5000x64_S64x64_S5000x64_1_0_0_1_n_n.rhsNonContracting by decide)]
  rfl

/-- With the contraction index named by its one coordinate k, the left operand's index at output (p, q) is (p, k). -/
theorem lhs_eq (p : Fin 5000) (q k : Fin 64) :
    dot_S5000x64_S64x64_S5000x64_1_0_0_1_n_n.lhsIdx (ix2 p q)
        ((contrEquiv1 dot_S5000x64_S64x64_S5000x64_1_0_0_1_n_n 64 rfl rfl).symm k) = ix2 p k := by
  have hk := contrEquiv1_symm_val dot_S5000x64_S64x64_S5000x64_1_0_0_1_n_n 64 rfl rfl k
  refine funext fun a => Fin.ext ?_
  match a with
  | ⟨0, _⟩ => exact lhs_0 _ _
  | ⟨1, _⟩ => exact (lhs_1 _ _).trans hk

/-- The right operand's index there is (k, q). -/
theorem rhs_eq (p : Fin 5000) (q k : Fin 64) :
    dot_S5000x64_S64x64_S5000x64_1_0_0_1_n_n.rhsIdx (ix2 p q)
        ((contrEquiv1 dot_S5000x64_S64x64_S5000x64_1_0_0_1_n_n 64 rfl rfl).symm k) = ix2 k q := by
  have hk := contrEquiv1_symm_val dot_S5000x64_S64x64_S5000x64_1_0_0_1_n_n 64 rfl rfl k
  refine funext fun a => Fin.ext ?_
  match a with
  | ⟨0, _⟩ => exact (rhs_0 _ _).trans hk
  | ⟨1, _⟩ => exact rhs_1 _ _

/-- The stored value at (p, q): the sum over k of x(p, k) · w(k, q). -/
theorem pay_apply (x : Vec Ideal S5000x64 .f32) (w : Vec Ideal S64x64 .f32) (p : Fin 5000) (q : Fin 64) :
    k0_pay1 (F := Ideal) x w (ix2 p q) = ∑ k : Fin 64, x (ix2 p k) * w (ix2 k q) := by
  unfold k0_pay1
  simp only [matmul]
  rw [Ideal.matmul_constant_zero_apply, ← Equiv.sum_comp (contrEquiv1 dot_S5000x64_S64x64_S5000x64_1_0_0_1_n_n 64 rfl rfl).symm]
  refine Finset.sum_congr rfl fun k _ => ?_
  rw [lhs_eq, rhs_eq]
  rfl

/-- A product of two array entries moves along equal indices. -/
theorem term_congr (X : S50000x64.Idx → EReal) (W : S64x64.Idx → EReal) {i i' : S50000x64.Idx} {j j' : S64x64.Idx}
    (hi : i = i') (hj : j = j') : X i * W j = X i' * W j' := by rw [hi, hj]

/-! ## The blocks -/

/-- The printed index maps over the ten points: x's block and the output's block are band t, W's block is all of W. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

variable (V : (c : Dev nD) → (b : Ref sig .tc) → Buf (Elt Ideal) ((c : Thread nD τ).loc b))

/-- What point t writes back is block t of the dense product of the arrays the region was entered with. -/
theorem flushed_eq (c : Dev nD) (t : Fin cfg0.N) :
    (dat0 V c).flushed 2 t = ((cfg0.win 2).blk t).view.read (Elt Ideal) (Cert.Gcn.xw (V c main_arg0) (V c main_arg1)) := by
  show (cfg0.win 2).cut (grid0.coords t) ((dat0 V c).after 2 t) = _
  rw [after0_2]
  unfold out0_2
  rw [View.canon_unit_zero hz]
  simp only [View.ld_unit_zero (S := S5000x64) hz, View.ld_unit_zero (S := S64x64) hz]
  obtain ⟨e0, e1, e2, e3, e4, e5⟩ := idx_facts t
  funext j
  obtain ⟨p, q, rfl⟩ : ∃ (p : Fin 5000) (q : Fin 64), j = ix2 p q := ⟨j 0, j 1, eq_ix2 j⟩
  refine (pay_apply (iblk0 V c 0 t) (iblk0 V c 1 t) p q).trans ?_
  show _ = Cert.Gcn.xw (V c main_arg0) (V c main_arg1) (((cfg0.win 2).blk t).view.emb (ix2 p q))
  unfold Cert.Gcn.xw
  refine Finset.sum_congr rfl fun k _ => ?_
  have h0 : ((cfg0.win 0).blk t).view.emb (ix2 p k)
      = ix2 (n0 := 50000) (n1 := 64) ((((cfg0.win 2).blk t).view.emb (ix2 p q)) 0) k := by
    funext a; apply Fin.ext
    match a with
    | ⟨0, _⟩ => show win0_0.index t (0 : Fin 2) * 5000 + 1 * p.val = win0_2.index t (0 : Fin 2) * 5000 + 1 * p.val; omega
    | ⟨1, _⟩ => show win0_0.index t (1 : Fin 2) * 64 + 1 * k.val = k.val; omega
  have h1 : ((cfg0.win 1).blk t).view.emb (ix2 k q)
      = ix2 (n0 := 64) (n1 := 64) k ((((cfg0.win 2).blk t).view.emb (ix2 p q)) 1) := by
    funext a; apply Fin.ext
    match a with
    | ⟨0, _⟩ => show win0_1.index t (0 : Fin 2) * 64 + 1 * k.val = k.val; omega
    | ⟨1, _⟩ => show win0_1.index t (1 : Fin 2) * 64 + 1 * q.val = win0_2.index t (1 : Fin 2) * 64 + 1 * q.val; omega
  exact term_congr (V c main_arg0) (V c main_arg1) h0 h1

/-- An index of the result is in point t's block iff each coordinate is in the block's range on its axis. -/
theorem mem_blk (t : Fin cfg0.N) (i : S50000x64.Idx) :
    i ∈ ((cfg0.win 2).blk t).view.set ↔ ∀ a : Fin 2, win0_2.index t a * S5000x64.size a ≤ (i a).val ∧ (i a).val < win0_2.index t a * S5000x64.size a + S5000x64.size a := by
  show i ∈ ((View.whole main_v9).slice (win0_2.rect t)).set ↔ _
  rw [View.set_slice_whole, Rect.mem_set_unit]
  exact Iff.rfl

/-- Every index of the result lies in the block of the point its row's band names. -/
theorem cover (i : S50000x64.Idx) :
    ∃ t : Fin cfg0.N, (cfg0.win 2).flush t = true ∧ i ∈ ((cfg0.win 2).blk t).view.set := by
  have hi0 : (i 0).val < 50000 := (i 0).isLt
  have hi1 : (i 1).val < 64 := (i 1).isLt
  have hN : cfg0.N = 10 := N_0
  let t : Fin cfg0.N := ⟨(i 0).val / 5000, by rw [hN]; omega⟩
  obtain ⟨-, -, -, -, e4, e5⟩ := idx_facts t
  have ht : t.val = (i 0).val / 5000 := rfl
  refine ⟨t, flush0_2 t, ?_⟩
  rw [mem_blk]
  intro a
  match a with
  | ⟨0, _⟩ => show win0_2.index t (0 : Fin 2) * 5000 ≤ (i 0).val ∧ (i 0).val < win0_2.index t (0 : Fin 2) * 5000 + 5000; omega
  | ⟨1, _⟩ => show win0_2.index t (1 : Fin 2) * 64 ≤ (i 1).val ∧ (i 1).val < win0_2.index t (1 : Fin 2) * 64 + 64; omega

/-- The array the region leaves is the dense product of the arrays it was entered with. -/
theorem final (c : Dev nD) :
    (dat0 V c).arrAt 2 cfg0.N = Cert.Gcn.xw (V c main_arg0) (V c main_arg1) :=
  (dat0 V c).arrAt_eq_of_cover 2 (Cert.Gcn.xw (V c main_arg0) (V c main_arg1)) (fun t _ => flushed_eq V c t) cover

end Cert.KernelIdeal.MatmulValue

end
-- ==== Proof.LibLayout.lean ====
/-
  Layout operations of small shapes read at an index written by its coordinates: a vector viewed as a column, a column
  repeated along each row, and the row-major regrouping of an array's two leading axes into one axis and back.
  Each is the library's general reading of the operation (equal row-major positions for a cast, trailing coordinates
  for a broadcast) with the two positions worked out for the shapes at hand.
-/
import Idealize.ShloMosaic.Lib.Pipeline.Value
import Idealize.ShloMosaic.Lib.ValueIdx

namespace Cert.LibLayout

open Idealize.ShloMosaic Idealize.ShloMosaic.ValueIdx

variable {α : Type}

/-- An `[a]` array cast to the column `[a, 1]` reads, at `(i, u)`, the operand at `i`: position `i · 1 + 0` is `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- An `[n0, n1, n2]` array with its two leading axes regrouped into one of extent `N` reads, at `(r, c)` with
    `r = s · n1 + b`, the operand at `(s, b, c)`: both sit at row-major position `(s · n1 + b) · n2 + c`. -/
theorem shapeCast_abc_dc_apply {n0 n1 n2 N : ℕ} (x : (⟨3, ![n0, n1, n2]⟩ : Shape).Idx → α)
    (h : (⟨3, ![n0, n1, n2]⟩ : Shape).ShapeCasts ⟨2, ![N, n2]⟩) (r : Fin N) (c : Fin n2) (s : Fin n0) (b : Fin n1)
    (hr : r.val = s.val * n1 + b.val) :
    shapeCast ⟨2, ![N, n2]⟩ x h (ix2 r c) = x (ix3 s b c) :=
  shapeCast_apply x h _ _ (by
    rw [Shape.rowMajor_val_three, Shape.rowMajor_val_two]
    show (s.val * n1 + b.val) * n2 + c.val = r.val * n2 + c.val
    rw [hr])

/-- The way back: an `[N, n2]` array with its leading axis split into `[n0, n1]` reads, at `(s, b, c)`, the operand at
    `(r, c)` for `r = s · n1 + b`. -/
theorem shapeCast_dc_abc_apply {n0 n1 n2 N : ℕ} (x : (⟨2, ![N, n2]⟩ : Shape).Idx → α)
    (h : (⟨2, ![N, n2]⟩ : Shape).ShapeCasts ⟨3, ![n0, n1, n2]⟩) (s : Fin n0) (b : Fin n1) (c : Fin n2) (r : Fin N)
    (hr : r.val = s.val * n1 + b.val) :
    shapeCast ⟨3, ![n0, n1, n2]⟩ x h (ix3 s b c) = x (ix2 r c) :=
  shapeCast_apply x h _ _ (by
    rw [Shape.rowMajor_val_three, Shape.rowMajor_val_two]
    show r.val * n2 + c.val = (s.val * n1 + b.val) * n2 + c.val
    rw [hr])

end Cert.LibLayout
-- ==== Proof.Scale.lean ====
/-
  The second region: 170 grid points, each scaling a block of 5000 gathered feature rows.

  A point's body multiplies the first column block by the third (the row endpoint's factor by the edge weight), that
  by the second (the column endpoint's factor), repeats the resulting column along each row, and multiplies the
  feature block by it.  The identity shape casts drop out and the column broadcast reads row p's entry, so at
  (p, q) the stored value is a(p, q) · ((dr(p) · ew(p)) · dc(p)).  Block t of each of the five arrays is its band of
  rows 5000·t … 5000·t + 4999, so this is block t of `Cert.Gcn.scaled` of the arrays the region was entered with;
  the 170 bands cover the result.
-/
import proofs.«155317_j19447611916814_2_alg».proof.Proof.Gen.KernelIdeal.Frame
import proofs.«155317_j19447611916814_2_alg».proof.Proof.Spec
import proofs.«155317_j19447611916814_2_alg».proof.Proof.LibLayout
import Idealize.ShloMosaic.Lib.Pipeline.Value
import Idealize.ShloMosaic.Lib.ValueIdx

set_option maxRecDepth 16384

noncomputable section

namespace Cert.KernelIdeal.ScaleValue

open Idealize.ShloMosaic Idealize.ShloMosaic.TcCoe Idealize.ShloMosaic.ValueIdx Idealize.SL.Sem
open Idealize.ShloMosaic.Pipeline (Dat Cfg Window)
open Cert.KernelIdeal Cert.KernelIdeal.Gen

variable {F : FTy → Type} [FloatOps F]

/-! ## The body's arithmetic at an entry -/

theorem hz : (![0, 0] : Fin 2 → Nat) = fun _ => 0 := funext fun a => by fin_cases a <;> rfl

/-- The stored value at (p, q): the feature entry times the product of the three column entries of row p. -/
theorem pay_apply (dr ew dc : Vec F S5000x1 .f32) (a : Vec F S5000x64 .f32) (p : Fin 5000) (q : Fin 64) :
    k1_pay1 (F := F) dr ew dc a (ix2 p q)
      = FloatOps.mulf (a (ix2 p q)) (FloatOps.mulf (FloatOps.mulf (dr (ix2 p (0 : Fin 1))) (ew (ix2 p (0 : Fin 1)))) (dc (ix2 p (0 : Fin 1)))) := by
  unfold k1_pay1
  simp only [shapeCast_self]
  show FloatOps.mulf (a (ix2 p q)) (broadcastTo S5000x64 (mulf (mulf dr ew) dc) broadcasts_S5000x1_S5000x64 (ix2 p q)) = _
  rw [Cert.LibLayout.broadcastTo_a1_ab_apply]
  rfl

/-! ## The blocks -/

/-- The printed index maps over the 170 points: every window's block is band t of its array. -/
theorem idx_facts : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 2) = t.val ∧ win1_3.index t (1 : Fin 2) = 0
    ∧ win1_4.index t (0 : Fin 2) = t.val ∧ win1_4.index t (1 : Fin 2) = 0 :=
  (by decide +kernel : ∀ t : Fin grid1.N, _)

variable (V : (c : Dev nD) → (b : Ref sig .tc) → Buf (Elt F) ((c : Thread nD τ).loc b))

/-- What point t writes back is block t of the scaled rows of the arrays the region was entered with. -/
theorem flushed_eq (c : Dev nD) (t : Fin cfg1.N) :
    (dat1 V c).flushed 4 t = ((cfg1.win 4).blk t).view.read (Elt F)
      (Cert.Gcn.scaled (FloatOps.mulf (F := F) (φ := .f32)) (V c main_v37) (V c main_v38) (V c main_v39) (V c main_v40)) := by
  show (cfg1.win 4).cut (grid1.coords t) ((dat1 V c).after 4 t) = _
  rw [after1_4]
  unfold out1_4
  rw [View.canon_unit_zero hz]
  simp only [View.ld_unit_zero (S := S5000x64) hz, View.ld_unit_zero (S := S5000x1) hz]
  obtain ⟨e0, e1, e2, e3, e4, e5, e6, e7, e8, e9⟩ := idx_facts t
  funext j
  obtain ⟨p, q, rfl⟩ : ∃ (p : Fin 5000) (q : Fin 64), j = ix2 p q := ⟨j 0, j 1, eq_ix2 j⟩
  refine (pay_apply (iblk1 V c 1 t) (iblk1 V c 3 t) (iblk1 V c 2 t) (iblk1 V c 0 t) p q).trans ?_
  show _ = Cert.Gcn.scaled FloatOps.mulf (V c main_v37) (V c main_v38) (V c main_v39) (V c main_v40) (((cfg1.win 4).blk t).view.emb (ix2 p q))
  unfold Cert.Gcn.scaled
  have h0 : ((cfg1.win 0).blk t).view.emb (ix2 p q) = ((cfg1.win 4).blk t).view.emb (ix2 p q) := by
    funext a; apply Fin.ext
    match a with
    | ⟨0, _⟩ => show win1_0.index t (0 : Fin 2) * 5000 + 1 * p.val = win1_4.index t (0 : Fin 2) * 5000 + 1 * p.val; omega
    | ⟨1, _⟩ => show win1_0.index t (1 : Fin 2) * 64 + 1 * q.val = win1_4.index t (1 : Fin 2) * 64 + 1 * q.val; omega
  have h1 : ((cfg1.win 1).blk t).view.emb (ix2 p (0 : Fin 1))
      = ix2 (n0 := 850000) (n1 := 1) ((((cfg1.win 4).blk t).view.emb (ix2 p q)) 0) 0 := by
    funext a; apply Fin.ext
    match a with
    | ⟨0, _⟩ => show win1_1.index t (0 : Fin 2) * 5000 + 1 * p.val = win1_4.index t (0 : Fin 2) * 5000 + 1 * p.val; omega
    | ⟨1, _⟩ => show win1_1.index t (1 : Fin 2) * 1 + 1 * 0 = 0; omega
  have h2 : ((cfg1.win 2).blk t).view.emb (ix2 p (0 : Fin 1))
      = ix2 (n0 := 850000) (n1 := 1) ((((cfg1.win 4).blk t).view.emb (ix2 p q)) 0) 0 := by
    funext a; apply Fin.ext
    match a with
    | ⟨0, _⟩ => show win1_2.index t (0 : Fin 2) * 5000 + 1 * p.val = win1_4.index t (0 : Fin 2) * 5000 + 1 * p.val; omega
    | ⟨1, _⟩ => show win1_2.index t (1 : Fin 2) * 1 + 1 * 0 = 0; omega
  have h3 : ((cfg1.win 3).blk t).view.emb (ix2 p (0 : Fin 1))
      = ix2 (n0 := 850000) (n1 := 1) ((((cfg1.win 4).blk t).view.emb (ix2 p q)) 0) 0 := by
    funext a; apply Fin.ext
    match a with
    | ⟨0, _⟩ => show win1_3.index t (0 : Fin 2) * 5000 + 1 * p.val = win1_4.index t (0 : Fin 2) * 5000 + 1 * p.val; omega
    | ⟨1, _⟩ => show win1_3.index t (1 : Fin 2) * 1 + 1 * 0 = 0; omega
  show FloatOps.mulf (V c main_v37 (((cfg1.win 0).blk t).view.emb (ix2 p q)))
      (FloatOps.mulf (FloatOps.mulf (V c main_v38 (((cfg1.win 1).blk t).view.emb (ix2 p (0 : Fin 1))))
        (V c main_v40 (((cfg1.win 3).blk t).view.emb (ix2 p (0 : Fin 1)))))
        (V c main_v39 (((cfg1.win 2).blk t).view.emb (ix2 p (0 : Fin 1))))) = _
  rw [h0, h1, h2, h3]

/-- An index of the result is in point t's block iff each coordinate is in the block's range on its axis. -/
theorem mem_blk (t : Fin cfg1.N) (i : S850000x64.Idx) :
    i ∈ ((cfg1.win 4).blk t).view.set ↔ ∀ a : Fin 2, win1_4.index t a * S5000x64.size a ≤ (i a).val ∧ (i a).val < win1_4.index t a * S5000x64.size a + S5000x64.size a := by
  show i ∈ ((View.whole main_v41).slice (win1_4.rect t)).set ↔ _
  rw [View.set_slice_whole, Rect.mem_set_unit]
  exact Iff.rfl

/-- Every index of the result lies in the block of the point its row's band names. -/
theorem cover (i : S850000x64.Idx) :
    ∃ t : Fin cfg1.N, (cfg1.win 4).flush t = true ∧ i ∈ ((cfg1.win 4).blk t).view.set := by
  have hi0 : (i 0).val < 850000 := (i 0).isLt
  have hi1 : (i 1).val < 64 := (i 1).isLt
  have hN : cfg1.N = 170 := N_1
  let t : Fin cfg1.N := ⟨(i 0).val / 5000, by rw [hN]; omega⟩
  obtain ⟨-, -, -, -, -, -, -, -, e8, e9⟩ := idx_facts t
  have ht : t.val = (i 0).val / 5000 := rfl
  refine ⟨t, flush1_4 t, ?_⟩
  rw [mem_blk]
  intro a
  match a with
  | ⟨0, _⟩ => show win1_4.index t (0 : Fin 2) * 5000 ≤ (i 0).val ∧ (i 0).val < win1_4.index t (0 : Fin 2) * 5000 + 5000; omega
  | ⟨1, _⟩ => show win1_4.index t (1 : Fin 2) * 64 ≤ (i 1).val ∧ (i 1).val < win1_4.index t (1 : Fin 2) * 64 + 64; omega

/-- The array the region leaves is the scaled rows of the arrays it was entered with. -/
theorem final (c : Dev nD) :
    (dat1 V c).arrAt 4 cfg1.N
      = Cert.Gcn.scaled (FloatOps.mulf (F := F) (φ := .f32)) (V c main_v37) (V c main_v38) (V c main_v39) (V c main_v40) :=
  (dat1 V c).arrAt_eq_of_cover 4 _ (fun t _ => flushed_eq V c t) cover

end Cert.KernelIdeal.ScaleValue

end
-- ==== Proof.HostChain.lean ====
/-
  The host side of the idealized kernel program, read segment by segment, and the result against the reference.

  Both programs build the same edge lists from the index argument (the given edges followed by one self loop per
  node), the same extended weights (the given weights followed by ones), the same degrees (a scatter-add of the
  weights at the column ends), the same inverse square roots of the positive degrees, and gather them at both ends
  of every edge with the same wrapped indices.  The kernel program then computes the dense product x·W in its first
  region, gathers its rows, and scales them in its second region by the columns dr, dc and ew; the reference takes
  the host's matrix product, forms (dr · ew) · dc as a vector, repeats it along each row and multiplies.  Entry by
  entry these are the same product of the same four numbers, so the two [850000, 64] message arrays are equal; the
  closing scatter-add onto the nodes and the added bias are again the same operations on both sides.
-/
import proofs.«155317_j19447611916814_2_alg».proof.Proof.Gen.KernelIdeal.Frame
import proofs.«155317_j19447611916814_2_alg».proof.Proof.Gen.ReferenceIdeal.Read
import proofs.«155317_j19447611916814_2_alg».proof.Proof.Spec
import proofs.«155317_j19447611916814_2_alg».proof.Proof.Matmul
import proofs.«155317_j19447611916814_2_alg».proof.Proof.Scale
import proofs.«155317_j19447611916814_2_alg».proof.Proof.LibLayout
import Idealize.ShloMosaic.Lib.StableHlo.Run
import Idealize.ShloMosaic.Lib.Pipeline.Value
import Idealize.ShloMosaic.Lib.ValueIdx

set_option maxRecDepth 16384

noncomputable section

namespace Cert.KernelIdeal.HostValue

open Idealize.ShloMosaic Idealize.ShloMosaic.TcCoe Idealize.ShloMosaic.ValueIdx Idealize.SL.Sem Idealize.ShloMosaic.StableHlo
open Cert.KernelIdeal Cert.KernelIdeal.Gen Cert.ReferenceIdeal.Read

variable (m : (ℓ : Loc nD τ sig) → Buf (Elt Ideal) ℓ) (ρ : Dev nD → PrngReg) (c : Dev nD)

/-! ## Before the first region: the edge lists and the extended weights -/

theorem w1_v5 : W1 m ρ c (Proc.devRef .tc main_v5) = val_main_v5 (F := Ideal) (m ((c : Thread nD τ).loc main_arg4)) := by
  show StableHlo.after hostOps0 (W0 m ρ c) (Proc.devRef .tc main_v5) = _
  after_results
  rfl

theorem w1_v6 : W1 m ρ c (Proc.devRef .tc main_v6) = val_main_v6 (F := Ideal) (m ((c : Thread nD τ).loc main_arg4)) := by
  show StableHlo.after hostOps0 (W0 m ρ c) (Proc.devRef .tc main_v6) = _
  after_results
  rfl

theorem w1_v8 : W1 m ρ c (Proc.devRef .tc main_v8) = val_main_v8 (F := Ideal) (m ((c : Thread nD τ).loc main_arg3)) := by
  show StableHlo.after hostOps0 (W0 m ρ c) (Proc.devRef .tc main_v8) = _
  after_results
  rfl

theorem w1_arg0 : W1 m ρ c (Proc.devRef .tc main_arg0) = m ((c : Thread nD τ).loc main_arg0) := by
  show StableHlo.after hostOps0 (W0 m ρ c) (Proc.devRef .tc main_arg0) = _
  after_results

theorem w1_arg1 : W1 m ρ c (Proc.devRef .tc main_arg1) = m ((c : Thread nD τ).loc main_arg1) := by
  show StableHlo.after hostOps0 (W0 m ρ c) (Proc.devRef .tc main_arg1) = _
  after_results

theorem w1_arg2 : W1 m ρ c (Proc.devRef .tc main_arg2) = m ((c : Thread nD τ).loc main_arg2) := by
  show StableHlo.after hostOps0 (W0 m ρ c) (Proc.devRef .tc main_arg2) = _
  after_results

/-! ## The first region's result, and what it leaves alone -/

theorem w2_v9 : W2 m ρ c (Proc.devRef .tc main_v9)
    = Cert.Gcn.xw (m ((c : Thread nD τ).loc main_arg0)) (m ((c : Thread nD τ).loc main_arg1)) := by
  refine (W2_arr m ρ c 2).trans ((Cert.KernelIdeal.MatmulValue.final (V1 m ρ) c).trans ?_)
  show Cert.Gcn.xw (W1 m ρ c (Proc.devRef .tc main_arg0)) (W1 m ρ c (Proc.devRef .tc main_arg1)) = _
  rw [w1_arg0, w1_arg1]

theorem w2_v5 : W2 m ρ c (Proc.devRef .tc main_v5) = val_main_v5 (F := Ideal) (m ((c : Thread nD τ).loc main_arg4)) :=
  (W2_of_ne m ρ c main_v5 (by decide)).trans (w1_v5 m ρ c)
theorem w2_v6 : W2 m ρ c (Proc.devRef .tc main_v6) = val_main_v6 (F := Ideal) (m ((c : Thread nD τ).loc main_arg4)) :=
  (W2_of_ne m ρ c main_v6 (by decide)).trans (w1_v6 m ρ c)
theorem w2_v8 : W2 m ρ c (Proc.devRef .tc main_v8) = val_main_v8 (F := Ideal) (m ((c : Thread nD τ).loc main_arg3)) :=
  (W2_of_ne m ρ c main_v8 (by decide)).trans (w1_v8 m ρ c)
theorem w2_arg2 : W2 m ρ c (Proc.devRef .tc main_arg2) = m ((c : Thread nD τ).loc main_arg2) :=
  (W2_of_ne m ρ c main_arg2 (by decide)).trans (w1_arg2 m ρ c)

/-- The kernel's dense product is the host's matrix product: both are the sum of the 64 products along the
    contracted axis. -/
theorem xw_eq (x0 : (⟨Cert.ReferenceIdeal.S50000x64, .f32⟩ : BufTy).Contents (Elt Ideal))
    (x1 : (⟨Cert.ReferenceIdeal.S64x64, .f32⟩ : BufTy).Contents (Elt Ideal)) :
    Cert.Gcn.xw x0 x1 = val_main_v32 (F := Ideal) x0 x1 := by
  funext i
  rw [val_main_v32_apply]
  unfold Cert.Gcn.xw
  refine Finset.sum_congr rfl fun k _ => ?_
  have hl : ix2 (n0 := 50000) (n1 := 64) (i 0) k = lidx_main_v32 i k :=
    funext fun a => by match a with | ⟨0, _⟩ => rfl | ⟨1, _⟩ => rfl
  have hr : ix2 (n0 := 64) (n1 := 64) k (i 1) = ridx_main_v32 i k :=
    funext fun a => by match a with | ⟨0, _⟩ => rfl | ⟨1, _⟩ => rfl
  rw [hl, hr]

/-! ## Between the regions: degrees, their inverse square roots, and the three gathers -/

/-! ### The degrees and their inverse square roots (the first stretch after the region) -/

theorem w3_v14 : W3 m ρ c (Proc.devRef .tc main_v14) = val_main_v13 (F := Ideal) (m ((c : Thread nD τ).loc main_arg3)) (m ((c : Thread nD τ).loc main_arg4)) := by
  show StableHlo.after hostOps1 (W2 m ρ c) (Proc.devRef .tc main_v14) = _
  after_results
  rw [w2_v6, w2_v8]
  rfl

theorem w3_v15 : W3 m ρ c (Proc.devRef .tc main_v15) = val_main_v14 (F := Ideal) (m ((c : Thread nD τ).loc main_arg3)) (m ((c : Thread nD τ).loc main_arg4)) := by
  show StableHlo.after hostOps1 (W2 m ρ c) (Proc.devRef .tc main_v15) = _
  after_results
  rw [w2_v6, w2_v8]
  rfl

theorem w3_cst_2 : W3 m ρ c (Proc.devRef .tc main_cst_2) = val_main_cst_2 (F := Ideal) := by
  show StableHlo.after hostOps1 (W2 m ρ c) (Proc.devRef .tc main_cst_2) = _
  after_results
  rfl

theorem w3_v5 : W3 m ρ c (Proc.devRef .tc main_v5) = val_main_v5 (F := Ideal) (m ((c : Thread nD τ).loc main_arg4)) := by
  show StableHlo.after hostOps1 (W2 m ρ c) (Proc.devRef .tc main_v5) = _
  after_results
  exact w2_v5 m ρ c
theorem w3_v6 : W3 m ρ c (Proc.devRef .tc main_v6) = val_main_v6 (F := Ideal) (m ((c : Thread nD τ).loc main_arg4)) := by
  show StableHlo.after hostOps1 (W2 m ρ c) (Proc.devRef .tc main_v6) = _
  after_results
  exact w2_v6 m ρ c
theorem w3_v8 : W3 m ρ c (Proc.devRef .tc main_v8) = val_main_v8 (F := Ideal) (m ((c : Thread nD τ).loc main_arg3)) := by
  show StableHlo.after hostOps1 (W2 m ρ c) (Proc.devRef .tc main_v8) = _
  after_results
  exact w2_v8 m ρ c
theorem w3_v9 : W3 m ρ c (Proc.devRef .tc main_v9) = Cert.Gcn.xw (m ((c : Thread nD τ).loc main_arg0)) (m ((c : Thread nD τ).loc main_arg1)) := by
  show StableHlo.after hostOps1 (W2 m ρ c) (Proc.devRef .tc main_v9) = _
  after_results
  exact w2_v9 m ρ c
theorem w3_arg2 : W3 m ρ c (Proc.devRef .tc main_arg2) = (m ((c : Thread nD τ).loc main_arg2)) := by
  show StableHlo.after hostOps1 (W2 m ρ c) (Proc.devRef .tc main_arg2) = _
  after_results
  exact w2_arg2 m ρ c

/-! ### The choice between the inverse square root and zero (the outlined `where`) -/

theorem w4_v16 : W4 m ρ c (Proc.devRef .tc main_v16) = val_main_v15 (F := Ideal) (m ((c : Thread nD τ).loc main_arg3)) (m ((c : Thread nD τ).loc main_arg4)) := by
  show StableHlo.after hostOps1_1 (W3 m ρ c) (Proc.devRef .tc main_v16) = _
  have h14 := w3_v14 m ρ c
  have h15 := w3_v15 m ρ c
  have hc2 := w3_cst_2 m ρ c
  generalize W3 m ρ c = Wv at h14 h15 hc2 ⊢
  after_results
  refine Eq.trans (b := select (Wv (Proc.devRef .tc main_v14)) (Wv (Proc.devRef .tc main_v15))
    (broadcastInDim S50000 ![] bcast_S_S50000 (id (Wv (Proc.devRef .tc main_cst_2))))) rfl ?_
  rw [h14, h15, hc2]
  rfl

theorem w4_v5 : W4 m ρ c (Proc.devRef .tc main_v5) = val_main_v5 (F := Ideal) (m ((c : Thread nD τ).loc main_arg4)) := by
  show StableHlo.after hostOps1_1 (W3 m ρ c) (Proc.devRef .tc main_v5) = _
  have h := w3_v5 m ρ c
  generalize W3 m ρ c = Wv at h ⊢
  after_results
  exact h
theorem w4_v6 : W4 m ρ c (Proc.devRef .tc main_v6) = val_main_v6 (F := Ideal) (m ((c : Thread nD τ).loc main_arg4)) := by
  show StableHlo.after hostOps1_1 (W3 m ρ c) (Proc.devRef .tc main_v6) = _
  have h := w3_v6 m ρ c
  generalize W3 m ρ c = Wv at h ⊢
  after_results
  exact h
theorem w4_v8 : W4 m ρ c (Proc.devRef .tc main_v8) = val_main_v8 (F := Ideal) (m ((c : Thread nD τ).loc main_arg3)) := by
  show StableHlo.after hostOps1_1 (W3 m ρ c) (Proc.devRef .tc main_v8) = _
  have h := w3_v8 m ρ c
  generalize W3 m ρ c = Wv at h ⊢
  after_results
  exact h
theorem w4_v9 : W4 m ρ c (Proc.devRef .tc main_v9) = Cert.Gcn.xw (m ((c : Thread nD τ).loc main_arg0)) (m ((c : Thread nD τ).loc main_arg1)) := by
  show StableHlo.after hostOps1_1 (W3 m ρ c) (Proc.devRef .tc main_v9) = _
  have h := w3_v9 m ρ c
  generalize W3 m ρ c = Wv at h ⊢
  after_results
  exact h
theorem w4_arg2 : W4 m ρ c (Proc.devRef .tc main_arg2) = (m ((c : Thread nD τ).loc main_arg2)) := by
  show StableHlo.after hostOps1_1 (W3 m ρ c) (Proc.devRef .tc main_arg2) = _
  have h := w3_arg2 m ρ c
  generalize W3 m ρ c = Wv at h ⊢
  after_results
  exact h

/-! ### The three gathers and the columns (the last stretch before the second region) -/

set_option maxHeartbeats 4000000 in
theorem w5_v37 : W5 m ρ c (Proc.devRef .tc main_v37)
    = val_main_v39 (F := Ideal) (m ((c : Thread nD τ).loc main_arg0)) (m ((c : Thread nD τ).loc main_arg1)) (m ((c : Thread nD τ).loc main_arg4)) := by
  show StableHlo.after hostOps1_2 (W4 m ρ c) (Proc.devRef .tc main_v37) = _
  have h9 := w4_v9 m ρ c
  have h5 := w4_v5 m ρ c
  generalize W4 m ρ c = Wv at h9 h5 ⊢
  after_results_simp
  rw [h9, h5, xw_eq]
  rfl

set_option maxHeartbeats 4000000 in
theorem w5_v38 : W5 m ρ c (Proc.devRef .tc main_v38)
    = shapeCast S850000x1 (val_main_v22 (F := Ideal) (m ((c : Thread nD τ).loc main_arg3)) (m ((c : Thread nD τ).loc main_arg4))) shapeCasts_S850000_S850000x1 := by
  show StableHlo.after hostOps1_2 (W4 m ρ c) (Proc.devRef .tc main_v38) = _
  have h16 := w4_v16 m ρ c
  have h5 := w4_v5 m ρ c
  generalize W4 m ρ c = Wv at h16 h5 ⊢
  after_results_simp
  rw [h16, h5]
  rfl

set_option maxHeartbeats 4000000 in
theorem w5_v39 : W5 m ρ c (Proc.devRef .tc main_v39)
    = shapeCast S850000x1 (val_main_v30 (F := Ideal) (m ((c : Thread nD τ).loc main_arg3)) (m ((c : Thread nD τ).loc main_arg4))) shapeCasts_S850000_S850000x1 := by
  show StableHlo.after hostOps1_2 (W4 m ρ c) (Proc.devRef .tc main_v39) = _
  have h16 := w4_v16 m ρ c
  have h6 := w4_v6 m ρ c
  generalize W4 m ρ c = Wv at h16 h6 ⊢
  after_results_simp
  rw [h16, h6]
  rfl

set_option maxHeartbeats 4000000 in
theorem w5_v40 : W5 m ρ c (Proc.devRef .tc main_v40)
    = shapeCast S850000x1 (val_main_v8 (F := Ideal) (m ((c : Thread nD τ).loc main_arg3))) shapeCasts_S850000_S850000x1 := by
  show StableHlo.after hostOps1_2 (W4 m ρ c) (Proc.devRef .tc main_v40) = _
  have h8 := w4_v8 m ρ c
  generalize W4 m ρ c = Wv at h8 ⊢
  after_results_simp
  rw [h8]
  rfl

set_option maxHeartbeats 4000000 in
theorem w5_v6 : W5 m ρ c (Proc.devRef .tc main_v6) = val_main_v6 (F := Ideal) (m ((c : Thread nD τ).loc main_arg4)) := by
  show StableHlo.after hostOps1_2 (W4 m ρ c) (Proc.devRef .tc main_v6) = _
  have h := w4_v6 m ρ c
  generalize W4 m ρ c = Wv at h ⊢
  after_results_simp
  exact h

set_option maxHeartbeats 4000000 in
theorem w5_arg2 : W5 m ρ c (Proc.devRef .tc main_arg2) = (m ((c : Thread nD τ).loc main_arg2)) := by
  show StableHlo.after hostOps1_2 (W4 m ρ c) (Proc.devRef .tc main_arg2) = _
  have h := w4_arg2 m ρ c
  generalize W4 m ρ c = Wv at h ⊢
  after_results_simp
  exact h

/-! ## The second region's result against the reference's messages -/

/-- Scaling the gathered rows by the three columns is the reference's product with the repeated vector
    (dr · ew) · dc: at (e, j) both are the feature entry times that edge's factor. -/
theorem msgs_eq (x0 : (⟨Cert.ReferenceIdeal.S50000x64, .f32⟩ : BufTy).Contents (Elt Ideal))
    (x1 : (⟨Cert.ReferenceIdeal.S64x64, .f32⟩ : BufTy).Contents (Elt Ideal))
    (x3 : (⟨Cert.ReferenceIdeal.S800000, .f32⟩ : BufTy).Contents (Elt Ideal))
    (x4 : (⟨Cert.ReferenceIdeal.S2x800000, .i32⟩ : BufTy).Contents (Elt Ideal)) :
    Cert.Gcn.scaled (FloatOps.mulf (F := Ideal) (φ := .f32)) (val_main_v39 (F := Ideal) x0 x1 x4)
        (shapeCast S850000x1 (val_main_v22 (F := Ideal) x3 x4) shapeCasts_S850000_S850000x1)
        (shapeCast S850000x1 (val_main_v30 (F := Ideal) x3 x4) shapeCasts_S850000_S850000x1)
        (shapeCast S850000x1 (val_main_v8 (F := Ideal) x3) shapeCasts_S850000_S850000x1)
      = val_main_v42 (F := Ideal) x0 x1 x3 x4 := by
  funext i
  rw [val_main_v42_apply, val_main_v41_apply, val_main_v40_apply, val_main_v31_apply, val_main_v23_apply]
  unfold Cert.Gcn.scaled
  have hsc : ∀ v : (⟨1, ![850000]⟩ : Shape).Idx → EReal,
      shapeCast S850000x1 v shapeCasts_S850000_S850000x1 (ix2 (n0 := 850000) (n1 := 1) (i 0) 0) = v (ix1 (n := 850000) (i 0)) :=
    fun v => Cert.LibLayout.shapeCast_a_a1_apply (a := 850000) v shapeCasts_S850000_S850000x1 (i 0) 0
  have hj : idx_main_v40 (idx_main_v41 i) = ix1 (n := 850000) (i 0) :=
    funext fun a => by match a with | ⟨0, _⟩ => rfl
  rw [hsc, hsc, hsc, hj]

theorem w6_v41 : W6 m ρ c (Proc.devRef .tc main_v41)
    = val_main_v42 (F := Ideal) (m ((c : Thread nD τ).loc main_arg0)) (m ((c : Thread nD τ).loc main_arg1))
        (m ((c : Thread nD τ).loc main_arg3)) (m ((c : Thread nD τ).loc main_arg4)) := by
  refine (W6_arr m ρ c 4).trans ((Cert.KernelIdeal.ScaleValue.final (V5 m ρ) c).trans ?_)
  have e37 : V5 m ρ c main_v37 = _ := w5_v37 m ρ c
  have e38 : V5 m ρ c main_v38 = _ := w5_v38 m ρ c
  have e39 : V5 m ρ c main_v39 = _ := w5_v39 m ρ c
  have e40 : V5 m ρ c main_v40 = _ := w5_v40 m ρ c
  rw [e37, e38, e39, e40]
  exact msgs_eq _ _ _ _

theorem w6_v6 : W6 m ρ c (Proc.devRef .tc main_v6) = val_main_v6 (F := Ideal) (m ((c : Thread nD τ).loc main_arg4)) :=
  (W6_of_ne m ρ c main_v6 (by decide)).trans (w5_v6 m ρ c)
theorem w6_arg2 : W6 m ρ c (Proc.devRef .tc main_arg2) = m ((c : Thread nD τ).loc main_arg2) :=
  (W6_of_ne m ρ c main_arg2 (by decide)).trans (w5_arg2 m ρ c)

/-! ## After the second region: the scatter-add onto the nodes and the bias -/

/-- The result array of the idealized kernel program is the reference's result stage of the same arguments. -/
theorem result : W7 m ρ c (Proc.devRef .tc main_v47)
    = val_main_v48 (F := Ideal) (m ((c : Thread nD τ).loc main_arg0)) (m ((c : Thread nD τ).loc main_arg1))
        (m ((c : Thread nD τ).loc main_arg2)) (m ((c : Thread nD τ).loc main_arg3)) (m ((c : Thread nD τ).loc main_arg4)) := by
  show StableHlo.after hostOps2 (W6 m ρ c) (Proc.devRef .tc main_v47) = _
  after_results
  rw [w6_v41, w6_v6, w6_arg2]
  rfl

end Cert.KernelIdeal.HostValue

end
-- ==== Proof.lean ====
/-
  A graph convolution with edge weights: out = segment_sum(xw[row] · norm, col) + bias, where xw = x·W, the edge
  lists are the given edges followed by a self loop per node, and norm(e) = d(row e) · ew(e) · d(col e) with d the
  inverse square root of the positive weighted degrees.

  The kernel program computes x·W in one pipelined region (a bf16 matrix product with f32 accumulation) and the row
  scaling in a second one, with the irregular gathers and scatter-adds on the host between and after them; the
  reference does everything on the host.  At the ideal values rounding to bf16 is the identity, the two matrix
  products are the same sums, and the scaling factor is the same product taken in the same order, so the two
  results are the same function of the arguments (`HostValue.result`).  No finiteness is needed: the proof never
  moves a factor across a sum.

  The three frames: the two kernel programs' are the generated frame certificates; the reference has no kernel and
  its frame is its run with the result dropped.  The idealization rewrote no operation, so `preserves` is trivial.
-/
import proofs.«155317_j19447611916814_2_alg».proof.Defs
import proofs.«155317_j19447611916814_2_alg».proof.Proof.Gen.Kernel
import proofs.«155317_j19447611916814_2_alg».proof.Proof.Gen.Kernel.Skeleton
import proofs.«155317_j19447611916814_2_alg».proof.Proof.Gen.Kernel.Launch
import proofs.«155317_j19447611916814_2_alg».proof.Proof.Gen.Kernel.Points
import proofs.«155317_j19447611916814_2_alg».proof.Proof.Gen.Kernel.Frame
import proofs.«155317_j19447611916814_2_alg».proof.Proof.Gen.KernelIdeal
import proofs.«155317_j19447611916814_2_alg».proof.Proof.Gen.KernelIdeal.Skeleton
import proofs.«155317_j19447611916814_2_alg».proof.Proof.Gen.KernelIdeal.Launch
import proofs.«155317_j19447611916814_2_alg».proof.Proof.Gen.KernelIdeal.Points
import proofs.«155317_j19447611916814_2_alg».proof.Proof.Gen.KernelIdeal.Frame
import proofs.«155317_j19447611916814_2_alg».proof.Proof.Gen.ReferenceIdeal
import proofs.«155317_j19447611916814_2_alg».proof.Proof.Gen.Pre_finite_inputs
import proofs.«155317_j19447611916814_2_alg».proof.Proof.Gen.ReferenceIdeal.Run
import proofs.«155317_j19447611916814_2_alg».proof.Proof.Gen.ReferenceIdeal.Read
import proofs.«155317_j19447611916814_2_alg».proof.Proof.KernelRun
import proofs.«155317_j19447611916814_2_alg».proof.Proof.HostChain
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernel_ideal : Cert.frame_KernelIdeal := fun m ρ _ => Cert.KernelIdeal.Gen.frame m ρ

theorem frame_reference_ideal : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- From memories agreeing on the arguments both programs run, the kernel program's result array ending at the
    contents its last host stretch leaves, the reference's at its result stage; the two are equal. -/
theorem algebraic : Cert.algebraic_KernelIdeal_ReferenceIdeal := by
  intro m ρ m' ρ' _ hagree
  refine ⟨fun c => Cert.KernelIdeal.Gen.W7 m ρ c (Proc.devRef .tc Cert.KernelIdeal.main_v47),
    Cert.KernelIdeal.RunValue.run_named m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v48_eq, (hagree c).1, (hagree c).2.1, (hagree c).2.2.1, (hagree c).2.2.2.1,
    (hagree c).2.2.2.2]
  exact (Cert.KernelIdeal.HostValue.result m ρ c).symm

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference_ideal, preserves, algebraic⟩

end Cert.Proof

end
